-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x64x64 : Shape := ⟨4, ![64, 3, 64, 64]⟩
abbrev S16x30x30x3x64x64 : Shape := ⟨6, ![16, 30, 30, 3, 64, 64]⟩
abbrev S1x14400 : Shape := ⟨2, ![1, 14400]⟩
abbrev S_ : Shape := ⟨0, ![]⟩

class Facts : Prop where
  bcast_S_S64x3x64x64 : S_.BroadcastsInDim S64x3x64x64 (![] : Fin 0 → Fin S64x3x64x64.rank)
  reducesTo_S64x3x64x64_S_d0_1_2_3 : S64x3x64x64.ReducesTo [0, 1, 2, 3] S_
  h_S_ : 0 < S_.numel
  bcast_S_S16x30x30x3x64x64 : S_.BroadcastsInDim S16x30x30x3x64x64 (![] : Fin 0 → Fin S16x30x30x3x64x64.rank)
  reducesTo_S16x30x30x3x64x64_S_d0_1_2_3_4_5 : S16x30x30x3x64x64.ReducesTo [0, 1, 2, 3, 4, 5] S_
  bcast_S_S1x14400 : S_.BroadcastsInDim S1x14400 (![] : Fin 0 → Fin S1x14400.rank)
  reducesTo_S1x14400_S_d0_1 : S1x14400.ReducesTo [0, 1] S_

variable [Facts]

def fn {F : FTy → Type} [FloatOps F] (main_arg0 : FVec F S64x3x64x64 .f32) (main_arg1 : FVec F S16x30x30x3x64x64 .f32) (main_arg2 : FVec F S1x14400 .f32) : IVec S_ 1 :=
  let main_v0 : FVec F S64x3x64x64 .f32 := Host.absf main_arg0
  let main_cst : FVec F S_ .f32 := constant S_ .f32 0x7F800000#32
  let main_v1 : FVec F S64x3x64x64 .f32 := broadcastInDim S64x3x64x64 ![] bcast_S_S64x3x64x64 main_cst
  let main_v2 : IVec S64x3x64x64 1 := cmpf .olt main_v0 main_v1
  let main_c : IVec S_ 1 := constantI S_ 1 1#1
  let main_v3 : IVec S_ 1 := (fun x v => Host.reduce IntOp.andi x v reducesTo_S64x3x64x64_S_d0_1_2_3 h_S_) main_v2 main_c
  let main_v4 : FVec F S16x30x30x3x64x64 .f32 := Host.absf main_arg1
  let main_cst_0 : FVec F S_ .f32 := constant S_ .f32 0x7F800000#32
  let main_v5 : FVec F S16x30x30x3x64x64 .f32 := broadcastInDim S16x30x30x3x64x64 ![] bcast_S_S16x30x30x3x64x64 main_cst_0
  let main_v6 : IVec S16x30x30x3x64x64 1 := cmpf .olt main_v4 main_v5
  let main_c_1 : IVec S_ 1 := constantI S_ 1 1#1
  let main_v7 : IVec S_ 1 := (fun x v => Host.reduce IntOp.andi x v reducesTo_S16x30x30x3x64x64_S_d0_1_2_3_4_5 h_S_) main_v6 main_c_1
  let main_v8 : IVec S_ 1 := andi main_v3 main_v7
  let main_v9 : FVec F S1x14400 .f32 := Host.absf main_arg2
  let main_cst_2 : FVec F S_ .f32 := constant S_ .f32 0x7F800000#32
  let main_v10 : FVec F S1x14400 .f32 := broadcastInDim S1x14400 ![] bcast_S_S1x14400 main_cst_2
  let main_v11 : IVec S1x14400 1 := cmpf .olt main_v9 main_v10
  let main_c_3 : IVec S_ 1 := constantI S_ 1 1#1
  let main_v12 : IVec S_ 1 := (fun x v => Host.reduce IntOp.andi x v reducesTo_S1x14400_S_d0_1 h_S_) main_v11 main_c_3
  let main_v13 : IVec S_ 1 := andi main_v8 main_v12
  main_v13
-- ==== Kernel.lean ====
abbrev S64x3x64x64 : Shape := ⟨4, ![64, 3, 64, 64]⟩
abbrev S16x30x30x3x64x64 : Shape := ⟨6, ![16, 30, 30, 3, 64, 64]⟩
abbrev S1x14400 : Shape := ⟨2, ![1, 14400]⟩
abbrev S64x12288 : Shape := ⟨2, ![64, 12288]⟩
abbrev S14400x12288 : Shape := ⟨2, ![14400, 12288]⟩
abbrev S14400x64 : Shape := ⟨2, ![14400, 64]⟩
abbrev S64x256 : Shape := ⟨2, ![64, 256]⟩
abbrev S7200x256 : Shape := ⟨2, ![7200, 256]⟩
abbrev S7200x64 : Shape := ⟨2, ![7200, 64]⟩
abbrev S64x14400 : Shape := ⟨2, ![64, 14400]⟩
abbrev S64x16x30x30 : Shape := ⟨4, ![64, 16, 30, 30]⟩

abbrev nBuf : Space → Nat
  | .hbm => 10
  | .vmem => 6
  | .smem => 0
  | _ => 0

abbrev bufTy : (tb : Table) → Fin (tcTables nBuf tb) → BufTy
  | .hbm, ⟨0, _⟩ => ⟨S64x3x64x64, .f32⟩
  | .hbm, ⟨1, _⟩ => ⟨S16x30x30x3x64x64, .f32⟩
  | .hbm, ⟨2, _⟩ => ⟨S1x14400, .f32⟩
  | .hbm, ⟨3, _⟩ => ⟨S64x12288, .f32⟩
  | .hbm, ⟨4, _⟩ => ⟨S14400x12288, .f32⟩
  | .hbm, ⟨5, _⟩ => ⟨S14400x64, .f32⟩
  | .hbm, ⟨6, _⟩ => ⟨S64x14400, .f32⟩
  | .hbm, ⟨7, _⟩ => ⟨S64x14400, .f32⟩
  | .hbm, ⟨8, _⟩ => ⟨S64x14400, .f32⟩
  | .hbm, ⟨9, _⟩ => ⟨S64x16x30x30, .f32⟩
  | .local _ .vmem, ⟨0, _⟩ => ⟨S64x256, .f32⟩
  | .local _ .vmem, ⟨1, _⟩ => ⟨S64x256, .f32⟩
  | .local _ .vmem, ⟨2, _⟩ => ⟨S7200x256, .f32⟩
  | .local _ .vmem, ⟨3, _⟩ => ⟨S7200x256, .f32⟩
  | .local _ .vmem, ⟨4, _⟩ => ⟨S7200x64, .f32⟩
  | .local _ .vmem, ⟨5, _⟩ => ⟨S7200x64, .f32⟩
  | _, _ => ⟨S64x3x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![2, 48], ![false, false]⟩

def k0_cond2 (i : grid0.Coords) : BitVec 1 :=
  let arg1 : BitVec 32 := BitVec.ofNat 32 (i 1).val
  let c47_i32 : BitVec 32 := 47#32
  let v15 : BitVec 1 := Scalar.cmpi .eq arg1 c47_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S7200x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S7200x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

class Facts₀ : Prop where
  shapeCasts_S64x3x64x64_S64x12288 : S64x3x64x64.ShapeCasts S64x12288
  shapeCasts_S16x30x30x3x64x64_S14400x12288 : S16x30x30x3x64x64.ShapeCasts S14400x12288
  inb_S7200x64_S7200x64_0_0 : ∀ a, (![0, 0] : Fin 2 → Nat) a + S7200x64.size a ≤ S7200x64.size a
  h_S7200x64 : 0 < S7200x64.numel
  shapeCasts_S7200x64_S7200x64 : S7200x64.ShapeCasts S7200x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  bitsLt_bf16_f32 : FTy.bits .bf16 < FTy.bits .f32
  inb_S7200x256_S7200x256_0_0 : ∀ a, (![0, 0] : Fin 2 → Nat) a + S7200x256.size a ≤ S7200x256.size a
  h_S7200x256 : 0 < S7200x256.numel
  shapeCasts_S7200x256_S7200x256 : S7200x256.ShapeCasts S7200x256
  transposes_S14400x64_S64x14400_1_0 : S14400x64.Transposes [1, 0] S64x14400
  bcast_S1x14400_S64x14400_0_1 : S1x14400.BroadcastsInDim S64x14400 (![0, 1] : Fin 2 → Fin S64x14400.rank)
  shapeCasts_S64x14400_S64x16x30x30 : S64x14400.ShapeCasts S64x16x30x30
  dot_S7200x256_S64x256_S7200x64_1_1_0_0_n_n_wf : DotDims.WF S7200x256 S64x256 S7200x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S64x12288.size a
  hwx0_0 : ∀ i : grid0.Coords, EltTy.bits .f32 = 32 ∨ (Rect.block (s := S64x12288) S64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S7200x256.size a ≤ S14400x12288.size a
  hwx0_1 : ∀ i : grid0.Coords, EltTy.bits .f32 = 32 ∨ (Rect.block (s := S14400x12288) S7200x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7200x64.size a ≤ S14400x64.size a
  hwx0_2 : ∀ i : grid0.Coords, EltTy.bits .f32 = 32 ∨ (Rect.block (s := S14400x64) S7200x64.size (cc0_transform_2 i) (hinb0_2 i)).WholeWords (EltTy.packing .f32)

variable [Facts₀]

def dot_S7200x256_S64x256_S7200x64_1_1_0_0_n_n : DotDims S7200x256 S64x256 S7200x64 where
  lhsContracting := [1]
  rhsContracting := [1]
  lhsNonContracting := [0]
  rhsNonContracting := [0]
  lhsBatch := []
  rhsBatch := []
  wf := dot_S7200x256_S64x256_S7200x64_1_1_0_0_n_n_wf

abbrev win0_0 : Pipeline.Window sig grid0 :=
  Pipeline.Window.ofSpec (Memref.whole main_v0) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S7200x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S7200x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x3x64x64 : Shape := ⟨4, ![64, 3, 64, 64]⟩
abbrev S16x30x30x3x64x64 : Shape := ⟨6, ![16, 30, 30, 3, 64, 64]⟩
abbrev S1x14400 : Shape := ⟨2, ![1, 14400]⟩
abbrev S64x12288 : Shape := ⟨2, ![64, 12288]⟩
abbrev S14400x12288 : Shape := ⟨2, ![14400, 12288]⟩
abbrev S12288x14400 : Shape := ⟨2, ![12288, 14400]⟩
abbrev S64x14400 : Shape := ⟨2, ![64, 14400]⟩
abbrev S64x16x30x30 : Shape := ⟨4, ![64, 16, 30, 30]⟩

abbrev nBuf : Space → Nat
  | .hbm => 10
  | .vmem => 0
  | .smem => 0
  | _ => 0

abbrev bufTy : (tb : Table) → Fin (tcTables nBuf tb) → BufTy
  | .hbm, ⟨0, _⟩ => ⟨S64x3x64x64, .f32⟩
  | .hbm, ⟨1, _⟩ => ⟨S16x30x30x3x64x64, .f32⟩
  | .hbm, ⟨2, _⟩ => ⟨S1x14400, .f32⟩
  | .hbm, ⟨3, _⟩ => ⟨S64x12288, .f32⟩
  | .hbm, ⟨4, _⟩ => ⟨S14400x12288, .f32⟩
  | .hbm, ⟨5, _⟩ => ⟨S12288x14400, .f32⟩
  | .hbm, ⟨6, _⟩ => ⟨S64x14400, .f32⟩
  | .hbm, ⟨7, _⟩ => ⟨S64x14400, .f32⟩
  | .hbm, ⟨8, _⟩ => ⟨S64x14400, .f32⟩
  | .hbm, ⟨9, _⟩ => ⟨S64x16x30x30, .f32⟩
  | _, _ => ⟨S64x3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S64x3x64x64_S64x12288 : S64x3x64x64.ShapeCasts S64x12288
  shapeCasts_S16x30x30x3x64x64_S14400x12288 : S16x30x30x3x64x64.ShapeCasts S14400x12288
  transposes_S14400x12288_S12288x14400_1_0 : S14400x12288.Transposes [1, 0] S12288x14400
  bcast_S1x14400_S64x14400_0_1 : S1x14400.BroadcastsInDim S64x14400 (![0, 1] : Fin 2 → Fin S64x14400.rank)
  shapeCasts_S64x14400_S64x16x30x30 : S64x14400.ShapeCasts S64x16x30x30
  dot_S64x12288_S12288x14400_S64x14400_1_0_0_1_n_n_wf : DotDims.WF S64x12288 S12288x14400 S64x14400 [1] [0] [0] [1] [] []

variable [Facts₀]

def dot_S64x12288_S12288x14400_S64x14400_1_0_0_1_n_n : DotDims S64x12288 S12288x14400 S64x14400 where
  lhsContracting := [1]
  rhsContracting := [0]
  lhsNonContracting := [0]
  rhsNonContracting := [1]
  lhsBatch := []
  rhsBatch := []
  wf := dot_S64x12288_S12288x14400_S64x14400_1_0_0_1_n_n_wf

class Facts : Prop extends Facts₀ where

variable [Facts]
-- ==== Proof.LibMatmulRowsRead.lean ====
/-
  A matrix product of two arrays that share their SECOND axis, read entry by entry.

  A product that contracts the second axis of an `[a, k]` array with the second axis of a `[b, k]` array,
  started from the zero accumulator, reads at `(p, q)` the inner product of row `p` of the first with row `q`
  of the second: the sum over `d` of the left operand at `(p, d)` times the right operand at `(q, d)`. (This is
  the product of the first array with the transpose of the second, with no transpose written.)
  The record of dimension numbers is any one whose six axis lists are those of this contraction; at a literal
  record each of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- A product contracting the second axis of the left operand with the second axis of the right one, from the zero
    accumulator, read at `(p, q)`: the inner product of row `p` of the left operand with row `q` of the right one. -/
theorem matmul_rows_ix2_apply {a k b : ℕ} {φ₁ φ₂ : FTy} (D : DotDims ⟨2, ![a, k]⟩ ⟨2, ![b, k]⟩ ⟨2, ![a, b]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![a, k]⟩ φ₁) (w : FVec Ideal ⟨2, ![b, k]⟩ φ₂)
    (p : Fin a) (q : Fin b) :
    matmul D prec x w (constant (F := Ideal) ⟨2, ![a, b]⟩ .f32 0x00000000#32) (ix2 p q)
      = ∑ d : Fin k, x (ix2 p d) * w (ix2 q d) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => rfl
    | ⟨1, _⟩ => exact (DotDims.rhsIdx_val_of_single _ rfl _ _).trans (contrEquiv1_symm_val _ k rfl rfl d)

end Idealize.ShloMosaic.ValueIdx
-- ==== Proof.StepResult.lean ====
/-
  What one grid step of the kernel leaves behind.

  Every step reads its 64 × 256 block of X and its 7200 × 256 block of W, multiplies the W block by the transpose
  of the X block, and adds the 7200 × 64 result to the accumulator it carries; the first step of a half starts the
  accumulator from zero, and the last step also copies the accumulator into the output block. So the accumulator
  after a step is one and the same pure function of the two blocks and of the accumulator before the step (zero at
  a first step), and the output block written at a last step is that same array. Read at entry (r, q) at the exact
  values, the function is: the old accumulator's entry plus the inner product of row r of the W block with row q
  of the X block.
-/
import proofs.«113249_j51685636440285_2_alg».proof.Proof.Gen.KernelIdeal.Frame
import proofs.«113249_j51685636440285_2_alg».proof.Proof.LibMatmulRowsRead
import Idealize.ShloMosaic.Lib.Pipeline.Value
import Idealize.ShloMosaic.Lib.ValueIdx

set_option maxRecDepth 16384

noncomputable section

open scoped BigOperators

namespace Cert.KernelIdeal.Step

open Idealize.ShloMosaic Idealize.ShloMosaic.TcCoe Idealize.ShloMosaic.Tactic Idealize.ShloMosaic.ValueIdx
open Idealize.SL Idealize.SL.Sem
open Cert.KernelIdeal Cert.KernelIdeal.Gen

/-- The origin of a rank-2 array, as the constant-zero offset. -/
private theorem hz : (![0, 0] : Fin 2 → Nat) = fun _ => 0 := funext fun a => by fin_cases a <;> rfl

section pieces
variable {F : FTy → Type} [FloatOps F]

/-- A first step of a half leaves in the accumulator the step function of its blocks and the zero array. -/
theorem sout0_A_0_eq (c : Dev nD) (i : grid0.Coords) (arg2 : Memref sig .tc .vmem S64x256 .f32) (harg2 : arg2.IsWhole) (arg3 : Memref sig .tc .vmem S7200x256 .f32) (harg3 : arg3.IsWhole) (arg4 : Memref sig .tc .vmem S7200x64 .f32) (harg4 : arg4.IsWhole) (arg5 : Memref sig .tc .vmem S7200x64 .f32) (harg5 : arg5.IsWhole) (hc0 : cond0_0 i) (hc1 : ¬cond0_1 i)
    (x0 : Vec F S64x256 .f32) (x1 : Vec F S7200x256 .f32) :
    sout0_A_0 (F := F) c i arg2 harg2 arg3 harg3 arg4 harg4 arg5 harg5 hc0 hc1 x0 x1 = k0_pay2 x0 x1 (k0_pay1 (F := F)) := by
  -- the one covering store is the last piece; the accumulator it read back is the zero array just stored
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S7200x64) hz, View.readCov_unit_zero (S := S7200x64) _ hz]
  simp only [View.readAt_eq_ld, harg2.read_unread, harg3.read_unread, View.ld_unit_zero (S := S64x256) hz, View.ld_unit_zero (S := S7200x256) hz]

/-- A middle step leaves in the accumulator the step function of its blocks and the accumulator before it. -/
theorem sout0_B_0_eq (c : Dev nD) (i : grid0.Coords) (arg2 : Memref sig .tc .vmem S64x256 .f32) (harg2 : arg2.IsWhole) (arg3 : Memref sig .tc .vmem S7200x256 .f32) (harg3 : arg3.IsWhole) (arg4 : Memref sig .tc .vmem S7200x64 .f32) (harg4 : arg4.IsWhole) (arg5 : Memref sig .tc .vmem S7200x64 .f32) (harg5 : arg5.IsWhole) (hc0 : ¬cond0_0 i) (hc1 : ¬cond0_1 i)
    (x0 : Vec F S64x256 .f32) (x1 : Vec F S7200x256 .f32) (xs0 : Vec F S7200x64 .f32) :
    sout0_B_0 (F := F) c i arg2 harg2 arg3 harg3 arg4 harg4 arg5 harg5 hc0 hc1 x0 x1 xs0 = k0_pay2 x0 x1 xs0 := by
  -- one covering store, whose payload's three loads read the whole buffers
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz]
  simp only [View.readAt_eq_ld, harg2.read_unread, harg3.read_unread, harg5.read_unread, View.ld_unit_zero (S := S64x256) hz, View.ld_unit_zero (S := S7200x256) hz, View.ld_unit_zero (S := S7200x64) hz]

/-- A last step leaves the same in the accumulator, -/
theorem sout0_C_0_eq (c : Dev nD) (i : grid0.Coords) (arg2 : Memref sig .tc .vmem S64x256 .f32) (harg2 : arg2.IsWhole) (arg3 : Memref sig .tc .vmem S7200x256 .f32) (harg3 : arg3.IsWhole) (arg4 : Memref sig .tc .vmem S7200x64 .f32) (harg4 : arg4.IsWhole) (arg5 : Memref sig .tc .vmem S7200x64 .f32) (harg5 : arg5.IsWhole) (hc0 : ¬cond0_0 i) (hc1 : cond0_1 i)
    (x0 : Vec F S64x256 .f32) (x1 : Vec F S7200x256 .f32) (xs0 : Vec F S7200x64 .f32) :
    sout0_C_0 (F := F) c i arg2 harg2 arg3 harg3 arg4 harg4 arg5 harg5 hc0 hc1 x0 x1 xs0 = k0_pay2 x0 x1 xs0 := by
  -- as at a middle step: one covering store of the step function
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S64x256) hz, View.ld_unit_zero (S := S7200x256) hz, View.ld_unit_zero (S := S7200x64) hz]

/-- and writes that array into the output block. -/
theorem out0_C_2_eq (c : Dev nD) (i : grid0.Coords) (arg2 : Memref sig .tc .vmem S64x256 .f32) (harg2 : arg2.IsWhole) (arg3 : Memref sig .tc .vmem S7200x256 .f32) (harg3 : arg3.IsWhole) (arg4 : Memref sig .tc .vmem S7200x64 .f32) (harg4 : arg4.IsWhole) (arg5 : Memref sig .tc .vmem S7200x64 .f32) (harg5 : arg5.IsWhole) (hc0 : ¬cond0_0 i) (hc1 : cond0_1 i)
    (x0 : Vec F S64x256 .f32) (x1 : Vec F S7200x256 .f32) (xs0 : Vec F S7200x64 .f32) :
    out0_C_2 (F := F) c i arg2 harg2 arg3 harg3 arg4 harg4 arg5 harg5 hc0 hc1 x0 x1 xs0 = k0_pay2 x0 x1 xs0 := by
  -- the output's one covering store holds the accumulator read back after its own covering store
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S7200x64) _ hz]
  simp only [View.readAt_eq_ld, harg2.read_unread, harg3.read_unread, harg5.read_unread, View.ld_unit_zero (S := S64x256) hz, View.ld_unit_zero (S := S7200x256) hz, View.ld_unit_zero (S := S7200x64) hz]

end pieces

/-- The zero array the accumulator starts from reads zero everywhere. -/
theorem k0_pay1_apply (j : S7200x64.Idx) : k0_pay1 (F := Ideal) j = (0 : EReal) := by
  -- a broadcast of the word of +0.0, which denotes zero
  unfold k0_pay1
  rw [shapeCast_self]
  exact Ideal.ofBits_zero_f32

/-- The step function at entry `(r, q)`: the old accumulator's entry plus the inner product of row `r` of the
    W block with row `q` of the X block. -/
theorem k0_pay2_apply (x0 : Vec Ideal S64x256 .f32) (x1 : Vec Ideal S7200x256 .f32) (xs : Vec Ideal S7200x64 .f32)
    (r : Fin 7200) (q : Fin 64) :
    k0_pay2 (F := Ideal) x0 x1 xs (ix2 r q) = (xs (ix2 r q) + ∑ d : Fin 256, x1 (ix2 r d) * x0 (ix2 q d) : EReal) := by
  -- the casts are identities, the sum is entrywise, the format change is the identity at the exact values, and the
  -- product from the zero accumulator reads the inner product of the two rows
  unfold k0_pay2
  simp only [shapeCast_self]
  refine (addf_apply (s := S7200x64) (φ := .f32) xs _ (ix2 r q)).trans ?_
  refine congrArg (fun z => (xs (ix2 r q) + z : EReal)) ?_
  exact matmul_rows_ix2_apply (a := 7200) (k := 256) (b := 64) dot_S7200x256_S64x256_S7200x64_1_1_0_0_n_n rfl rfl rfl rfl rfl rfl none
    (truncf .bf16 x1 bitsLt_bf16_f32) (truncf .bf16 x0 bitsLt_bf16_f32) r q

end Cert.KernelIdeal.Step

end
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.BlockedProduct.lean ====
/-
  The product of a [64, 12288] array X with the transpose of a [14400, 12288] array W, entry by entry, and the same
  product taken 256 columns at a time.

  Entry (n, q) of the transposed product is the inner product of row n of W with row q of X: the sum over all
  12288 columns k of W(n, k) · X(q, k). Cutting the columns into 48 consecutive blocks of 256 and the rows of W
  into two halves of 7200, the contribution of block k to the entry at row r of half n is the sum over the
  block's 256 columns; adding the blocks' contributions one after the other, starting from zero, gives after the
  last block the whole inner product. On the extended reals this needs only that addition is commutative and
  associative and that zero is its unit: no entry has to be finite.
-/
import Idealize.ShloMosaic.PureOps.Ideal
import Idealize.ShloMosaic.Lib.ValueIdx
import proofs.«113249_j51685636440285_2_alg».proof.Proof.LibMatmulRead

noncomputable section

open scoped BigOperators

namespace Cert.BlockedProduct

open Idealize.ShloMosaic Idealize.ShloMosaic.ValueIdx

/-- Column `256 k + d`: column `d` of block `k`. -/
def col (k : Fin 48) (d : Fin 256) : Fin 12288 := ⟨256 * k.val + d.val, by omega⟩

/-- Row `7200 n + r`: row `r` of half `n`. -/
def row (n : Fin 2) (r : Fin 7200) : Fin 14400 := ⟨7200 * n.val + r.val, by omega⟩

/-- The inner product of row `n` of `W` with row `q` of `X`. -/
def inner (X : (⟨2, ![64, 12288]⟩ : Shape).Idx → EReal) (W : (⟨2, ![14400, 12288]⟩ : Shape).Idx → EReal)
    (n : Fin 14400) (q : Fin 64) : EReal :=
  ∑ k : Fin 12288, W (ix2 n k) * X (ix2 q k)

/-- The transposed product `W · Xᵀ`, a [14400, 64] array. -/
def prodT (X : (⟨2, ![64, 12288]⟩ : Shape).Idx → EReal) (W : (⟨2, ![14400, 12288]⟩ : Shape).Idx → EReal) :
    (⟨2, ![14400, 64]⟩ : Shape).Idx → EReal :=
  fun i => inner X W (i 0) (i 1)

/-- The product `X · Wᵀ`, a [64, 14400] array. -/
def prod (X : (⟨2, ![64, 12288]⟩ : Shape).Idx → EReal) (W : (⟨2, ![14400, 12288]⟩ : Shape).Idx → EReal) :
    (⟨2, ![64, 14400]⟩ : Shape).Idx → EReal :=
  fun i => inner X W (i 1) (i 0)

/-- Block `k`'s contribution to the entry at row `r` of half `n` and column `q`. -/
def part (X : (⟨2, ![64, 12288]⟩ : Shape).Idx → EReal) (W : (⟨2, ![14400, 12288]⟩ : Shape).Idx → EReal)
    (n : Fin 2) (k : Fin 48) (r : Fin 7200) (q : Fin 64) : EReal :=
  ∑ d : Fin 256, W (ix2 (row n r) (col k d)) * X (ix2 q (col k d))

/-- The accumulator of half `n` after blocks `0 … k`: the sum of their contributions, a [7200, 64] array. -/
def accum (X : (⟨2, ![64, 12288]⟩ : Shape).Idx → EReal) (W : (⟨2, ![14400, 12288]⟩ : Shape).Idx → EReal)
    (n : Fin 2) (k : ℕ) : (⟨2, ![7200, 64]⟩ : Shape).Idx → EReal :=
  fun i => ∑ j ∈ Finset.univ.filter (fun j : Fin 48 => j.val ≤ k), part X W n j (i 0) (i 1)

variable (X : (⟨2, ![64, 12288]⟩ : Shape).Idx → EReal) (W : (⟨2, ![14400, 12288]⟩ : Shape).Idx → EReal)

/-- Zero plus the first block's contribution is the accumulator after block 0. -/
theorem accum_first (n : Fin 2) (r : Fin 7200) (q : Fin 64) :
    (0 : EReal) + part X W n ⟨0, by omega⟩ r q = accum X W n 0 (ix2 r q) := by
  -- the only block number that is at most 0 is block 0
  have hfilter : Finset.univ.filter (fun j : Fin 48 => j.val ≤ 0) = {(⟨0, by omega⟩ : Fin 48)} := by
    ext j
    simp only [Finset.mem_filter, Finset.mem_univ, true_and, Finset.mem_singleton, Fin.ext_iff]
    omega
  show (0 : EReal) + part X W n ⟨0, by omega⟩ r q
      = ∑ j ∈ Finset.univ.filter (fun j : Fin 48 => j.val ≤ 0), part X W n j r q
  rw [hfilter, Finset.sum_singleton, zero_add]

/-- The accumulator after block `k` plus block `k + 1`'s contribution is the accumulator after block `k + 1`. -/
theorem accum_step (n : Fin 2) (k : ℕ) (hk : k + 1 < 48) (r : Fin 7200) (q : Fin 64) :
    accum X W n k (ix2 r q) + part X W n ⟨k + 1, hk⟩ r q = accum X W n (k + 1) (ix2 r q) := by
  -- the blocks numbered at most k + 1 are block k + 1 together with the blocks numbered at most k
  have hfilter : Finset.univ.filter (fun j : Fin 48 => j.val ≤ k + 1)
      = insert (⟨k + 1, hk⟩ : Fin 48) (Finset.univ.filter (fun j : Fin 48 => j.val ≤ k)) := by
    ext j
    simp [Fin.ext_iff]
    omega
  have hnot : (⟨k + 1, hk⟩ : Fin 48) ∉ Finset.univ.filter (fun j : Fin 48 => j.val ≤ k) := by
    simp
  show (∑ j ∈ Finset.univ.filter (fun j : Fin 48 => j.val ≤ k), part X W n j r q) + part X W n ⟨k + 1, hk⟩ r q
      = ∑ j ∈ Finset.univ.filter (fun j : Fin 48 => j.val ≤ k + 1), part X W n j r q
  rw [hfilter, Finset.sum_insert hnot, add_comm]

/-- After the last block the accumulator holds the whole inner products of its half's rows. -/
theorem accum_last (n : Fin 2) (r : Fin 7200) (q : Fin 64) :
    accum X W n 47 (ix2 r q) = inner X W (row n r) q := by
  -- every block number is at most 47
  have hfilter : Finset.univ.filter (fun j : Fin 48 => j.val ≤ 47) = Finset.univ := by
    ext j
    simp
    omega
  -- the pairs (block, column in the block) number the 12288 columns: (k, d) is column 256 k + d
  let e : Fin 48 × Fin 256 ≃ Fin 12288 := finProdFinEquiv.trans (finCongr (by norm_num))
  have hcol : ∀ p : Fin 48 × Fin 256, e p = col p.1 p.2 := by
    intro p
    apply Fin.ext
    simp [e, col, finProdFinEquiv]
    omega
  show ∑ j ∈ Finset.univ.filter (fun j : Fin 48 => j.val ≤ 47), part X W n j r q = inner X W (row n r) q
  rw [hfilter]
  unfold part inner
  rw [← Equiv.sum_comp e, Fintype.sum_prod_type]
  refine Finset.sum_congr rfl fun j _ => Finset.sum_congr rfl fun d _ => ?_
  rw [hcol]

/-- The transposed product, transposed, is the product. -/
theorem transpose_prodT (h : (⟨2, ![14400, 64]⟩ : Shape).Transposes [1, 0] ⟨2, ![64, 14400]⟩) :
    transpose ⟨2, ![64, 14400]⟩ [1, 0] (prodT X W) h = prod X W := by
  funext i
  obtain ⟨q, n, rfl⟩ : ∃ (q : Fin 64) (n : Fin 14400), i = ix2 q n := ⟨i 0, i 1, eq_ix2 i⟩
  -- the transpose reads the transposed product at (n, q); both sides are the inner product of row n of W and row q of X
  exact (transpose_ab_ba_apply (prodT X W) h q n).trans rfl

end Cert.BlockedProduct

end
-- ==== Proof.Accumulated.lean ====
/-
  What the kernel's run leaves in its arrays, at the exact values.

  The grid has 2 × 48 points; point t works on half t / 48 of W's rows and on column block t % 48. Its X block
  is rows 0 … 63 and columns 256 (t % 48) … of X, its W block rows 7200 (t / 48) … and the same columns of W. So
  the step's inner products are that block's contribution to the entries of its half, and by induction on the
  point the accumulator after point t holds the sum of the contributions of blocks 0 … t % 48. At the last point
  of a half (t % 48 = 47) the accumulator, then the whole inner products, is written to the output block, which is
  rows 7200 (t / 48) … of the [14400, 64] result; the two halves' blocks cover it. The host then transposes the
  result, adds the bias row to every row, and reshapes.
-/
import proofs.«113249_j51685636440285_2_alg».proof.Proof.Gen.KernelIdeal.Frame
import proofs.«113249_j51685636440285_2_alg».proof.Proof.StepResult
import proofs.«113249_j51685636440285_2_alg».proof.Proof.BlockedProduct
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open scoped BigOperators

namespace Cert.KernelIdeal.Acc

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Step Cert.BlockedProduct

variable (m : (ℓ : Loc nD τ sig) → Buf (Elt Ideal) ℓ) (ρ : Dev nD → PrngReg)

/-- The windows' block indices at point `t`: X's block is column block `t % 48`; W's is row half `t / 48` and column
    block `t % 48`; the result's is row half `t / 48`. Decided over the grid. -/
theorem idx_facts : ∀ t : Fin cfg0.N,
    win0_0.index t (0 : Fin 2) = 0 ∧ win0_0.index t (1 : Fin 2) = t.val % 48
    ∧ win0_1.index t (0 : Fin 2) = t.val / 48 ∧ win0_1.index t (1 : Fin 2) = t.val % 48
    ∧ win0_2.index t (0 : Fin 2) = t.val / 48 ∧ win0_2.index t (1 : Fin 2) = 0 :=
  (by decide +kernel : ∀ t : Fin grid0.N, _)

/-- The X block at point `t`, as a [64, 256] array of extended reals. -/
abbrev xblk (c : Dev nD) (t : Fin cfg0.N) : Vec Ideal S64x256 .f32 := iblk m c 0 t
/-- The W block at point `t`, as a [7200, 256] array of extended reals. -/
abbrev wblk (c : Dev nD) (t : Fin cfg0.N) : Vec Ideal S7200x256 .f32 := iblk m c 1 t

/-- The X block at point `t`, at `(q, d)`: X at row `q`, column `d` of block `t % 48`. -/
theorem iblk0_apply (c : Dev nD) (t : Fin cfg0.N) (k : Fin 48) (hk : t.val % 48 = k.val) (q : Fin 64) (d : Fin 256) :
    xblk m c t (ix2 q d) = V m c main_v0 (ix2 q (col k d)) := by
  obtain ⟨e0, e1, -, -, -, -⟩ := idx_facts t
  unfold xblk iblk
  rw [View.read_apply]
  show V m c main_v0 _ = V m c main_v0 _
  refine congrArg (V m c main_v0) (funext fun a => Fin.ext ?_)
  match a with
  | ⟨0, _⟩ => show win0_0.index t (0 : Fin 2) * 64 + 1 * q.val = q.val; omega
  | ⟨1, _⟩ => show win0_0.index t (1 : Fin 2) * 256 + 1 * d.val = 256 * k.val + d.val; omega

/-- The W block at point `t`, at `(r, d)`: W at row `r` of half `t / 48`, column `d` of block `t % 48`. -/
theorem iblk1_apply (c : Dev nD) (t : Fin cfg0.N) (n : Fin 2) (hn : t.val / 48 = n.val) (k : Fin 48) (hk : t.val % 48 = k.val)
    (r : Fin 7200) (d : Fin 256) :
    wblk m c t (ix2 r d) = V m c main_v1 (ix2 (row n r) (col k d)) := by
  obtain ⟨-, -, e2, e3, -, -⟩ := idx_facts t
  unfold wblk iblk
  rw [View.read_apply]
  show V m c main_v1 _ = V m c main_v1 _
  refine congrArg (V m c main_v1) (funext fun a => Fin.ext ?_)
  match a with
  | ⟨0, _⟩ => show win0_1.index t (0 : Fin 2) * 7200 + 1 * r.val = 7200 * n.val + r.val; omega
  | ⟨1, _⟩ => show win0_1.index t (1 : Fin 2) * 256 + 1 * d.val = 256 * k.val + d.val; omega

/-- The step's inner products at point `t` are block `t % 48`'s contribution to half `t / 48`. -/
theorem blocks_part (c : Dev nD) (t : Fin cfg0.N) (n : Fin 2) (hn : t.val / 48 = n.val) (k : Fin 48) (hk : t.val % 48 = k.val)
    (r : Fin 7200) (q : Fin 64) :
    (∑ d : Fin 256, wblk m c t (ix2 r d) * xblk m c t (ix2 q d) : EReal)
      = part (V m c main_v0) (V m c main_v1) n k r q := by
  unfold part
  refine Finset.sum_congr rfl fun d _ => ?_
  rw [iblk1_apply m c t n hn k hk r d, iblk0_apply m c t k hk q d]

/-- One step at the exact values, at entry `(r, q)`: the accumulator before it plus the point's block contribution. -/
theorem step_apply (c : Dev nD) (t : Fin cfg0.N) (n : Fin 2) (hn : t.val / 48 = n.val) (k : Fin 48) (hk : t.val % 48 = k.val)
    (xs : Vec Ideal S7200x64 .f32) (r : Fin 7200) (q : Fin 64) :
    k0_pay2 (F := Ideal) (xblk m c t) (wblk m c t) xs (ix2 r q)
      = (xs (ix2 r q) + part (V m c main_v0) (V m c main_v1) n k r q : EReal) :=
  (k0_pay2_apply (xblk m c t) (wblk m c t) xs r q).trans
    (congrArg (fun z => (xs (ix2 r q) + z : EReal)) (blocks_part m c t n hn k hk r q))

/-- THE ACCUMULATOR after point `j`, of half `n = j / 48`: the contributions of blocks `0 … j % 48`. By induction on
    the point: a first point of a half starts from zero, every other point adds its block to what the point before
    left. -/
theorem scratch_eq (c : Dev nD) : ∀ (j : ℕ) (h : j < cfg0.N) (n : Fin 2) (hn : j / 48 = n.val),
    (outsAt0 m c j h).2 = accum (V m c main_v0) (V m c main_v1) n (j % 48)
  | 0, h, n, hn => by
    have e := outsAt0_A m c ⟨0, h⟩ (Nat.zero_mod 48) (by dsimp only; omega)
    rw [show outsAt0 m c 0 h = outsAt0 m c (⟨0, h⟩ : Fin cfg0.N).val (⟨0, h⟩ : Fin cfg0.N).isLt from rfl, e]
    dsimp only
    rw [sout0_A_0_eq]
    funext i
    obtain ⟨r, q, rfl⟩ : ∃ (r : Fin 7200) (q : Fin 64), i = ix2 r q := ⟨i 0, i 1, eq_ix2 i⟩
    refine (step_apply m c ⟨0, h⟩ n hn ⟨0, by omega⟩ rfl _ r q).trans ?_
    rw [k0_pay1_apply]
    exact accum_first _ _ n r q
  | j + 1, h, n, hn => by
    have hN : j + 1 < 96 := lt_of_lt_of_eq h (show cfg0.N = 96 from N_0)
    by_cases h0 : (j + 1) % 48 = 0
    · have e := outsAt0_A m c ⟨j + 1, h⟩ h0 (by dsimp only; omega)
      rw [show outsAt0 m c (j + 1) h = outsAt0 m c (⟨j + 1, h⟩ : Fin cfg0.N).val (⟨j + 1, h⟩ : Fin cfg0.N).isLt from rfl, e]
      dsimp only
      rw [sout0_A_0_eq]
      funext i
      obtain ⟨r, q, rfl⟩ : ∃ (r : Fin 7200) (q : Fin 64), i = ix2 r q := ⟨i 0, i 1, eq_ix2 i⟩
      refine (step_apply m c ⟨j + 1, h⟩ n hn ⟨0, by omega⟩ h0 _ r q).trans ?_
      rw [k0_pay1_apply]
      exact (accum_first _ _ n r q).trans (congrFun (congrArg (accum _ _ n) h0.symm) _)
    · have ih := scratch_eq c j (Nat.lt_of_succ_lt h) n (by omega)
      have hk : j % 48 + 1 < 48 := by omega
      have hk' : (j + 1) % 48 = j % 48 + 1 := by omega
      by_cases h1 : (j + 1) % 48 = 47
      · have e := outsAt0_C m c ⟨j + 1, h⟩ h0 h1
        rw [show outsAt0 m c (j + 1) h = outsAt0 m c (⟨j + 1, h⟩ : Fin cfg0.N).val (⟨j + 1, h⟩ : Fin cfg0.N).isLt from rfl, e]
        dsimp only
        rw [sout0_C_0_eq]
        funext i
        obtain ⟨r, q, rfl⟩ : ∃ (r : Fin 7200) (q : Fin 64), i = ix2 r q := ⟨i 0, i 1, eq_ix2 i⟩
        refine (step_apply m c ⟨j + 1, h⟩ n hn ⟨j % 48 + 1, hk⟩ hk' _ r q).trans ?_
        show (outsAt0 m c j _).2 (ix2 r q) + _ = _
        rw [ih]
        exact (accum_step _ _ n (j % 48) hk r q).trans (congrFun (congrArg (accum _ _ n) hk'.symm) _)
      · have e := outsAt0_B m c ⟨j + 1, h⟩ h0 h1
        rw [show outsAt0 m c (j + 1) h = outsAt0 m c (⟨j + 1, h⟩ : Fin cfg0.N).val (⟨j + 1, h⟩ : Fin cfg0.N).isLt from rfl, e]
        dsimp only
        rw [sout0_B_0_eq]
        funext i
        obtain ⟨r, q, rfl⟩ : ∃ (r : Fin 7200) (q : Fin 64), i = ix2 r q := ⟨i 0, i 1, eq_ix2 i⟩
        refine (step_apply m c ⟨j + 1, h⟩ n hn ⟨j % 48 + 1, hk⟩ hk' _ r q).trans ?_
        show (outsAt0 m c j _).2 (ix2 r q) + _ = _
        rw [ih]
        exact (accum_step _ _ n (j % 48) hk r q).trans (congrFun (congrArg (accum _ _ n) hk'.symm) _)

/-- THE OUTPUT BLOCK written at the last point of half `n`: the accumulator after all 48 blocks. -/
theorem out_eq (c : Dev nD) (t : Fin cfg0.N) (h1 : t.val % 48 = 47) (n : Fin 2) (hn : t.val / 48 = n.val) :
    (outsAt0 m c t.val t.isLt).1 = accum (V m c main_v0) (V m c main_v1) n 47 := by
  have hN : t.val < 96 := lt_of_lt_of_eq t.isLt (show cfg0.N = 96 from N_0)
  have h0 : ¬t.val % 48 = 0 := by omega
  have ih := scratch_eq m c (t.val - 1) (Nat.lt_of_le_of_lt (Nat.sub_le _ _) t.isLt) n (by omega)
  have hk' : (t.val - 1) % 48 = 46 := by omega
  rw [outsAt0_C m c t h0 h1]
  dsimp only
  rw [out0_C_2_eq]
  funext i
  obtain ⟨r, q, rfl⟩ : ∃ (r : Fin 7200) (q : Fin 64), i = ix2 r q := ⟨i 0, i 1, eq_ix2 i⟩
  refine (step_apply m c t n hn ⟨47, by omega⟩ h1 _ r q).trans ?_
  rw [ih]
  exact (congrArg (fun z => (z + part (V m c main_v0) (V m c main_v1) n ⟨47, by omega⟩ r q : EReal))
    (congrFun (congrArg (accum _ _ n) hk') (ix2 r q))).trans (accum_step _ _ n 46 (by omega) r q)

/-- WHAT A LAST POINT WRITES BACK is its block of the transposed product of the arrays the region found: the block's
    entry `(r, q)` sits at row `r` of half `t / 48`. -/
theorem flushed_eq (c : Dev nD) (t : Fin cfg0.N) (hf : (cfg0.win 2).flush t = true) :
    (dats m 0 c).flushed 2 t = ((cfg0.win 2).blk t).view.read (Elt Ideal) (prodT (V m c main_v0) (V m c main_v1)) := by
  have hN : t.val < 96 := lt_of_lt_of_eq t.isLt (show cfg0.N = 96 from N_0)
  have h1 : t.val % 48 = 47 := (flush0_2 t).mp hf
  obtain ⟨-, -, -, -, e4, e5⟩ := idx_facts t
  show (cfg0.win 2).cut (grid0.coords t) ((dats m 0 c).after 2 t) = _
  rw [after0_2, out_eq m c t h1 ⟨t.val / 48, by omega⟩ rfl]
  funext i
  obtain ⟨r, q, rfl⟩ : ∃ (r : Fin 7200) (q : Fin 64), i = ix2 r q := ⟨i 0, i 1, eq_ix2 i⟩
  show accum (V m c main_v0) (V m c main_v1) ⟨t.val / 48, by omega⟩ 47 (ix2 r q)
    = prodT (V m c main_v0) (V m c main_v1) (((cfg0.win 2).blk t).view.emb (ix2 r q))
  have e : ((cfg0.win 2).blk t).view.emb (ix2 r q) = ix2 (row ⟨t.val / 48, by omega⟩ r) q := funext fun a => Fin.ext (by
    match a with
    | ⟨0, _⟩ => show win0_2.index t (0 : Fin 2) * 7200 + 1 * r.val = 7200 * (t.val / 48) + r.val; omega
    | ⟨1, _⟩ => show win0_2.index t (1 : Fin 2) * 64 + 1 * q.val = q.val; omega)
  rw [e, accum_last]
  rfl

/-- An index of the result array is in point `t`'s block iff each coordinate is in the block's range on its axis. -/
theorem mem_blk (t : Fin cfg0.N) (i : S14400x64.Idx) :
    i ∈ ((cfg0.win 2).blk t).view.set ↔ ∀ a : Fin 2, win0_2.index t a * S7200x64.size a ≤ (i a).val ∧ (i a).val < win0_2.index t a * S7200x64.size a + S7200x64.size a := by
  show i ∈ ((View.whole main_v2).slice (win0_2.rect t)).set ↔ _
  rw [View.set_slice_whole, Rect.mem_set_unit]
  exact Iff.rfl

/-- THE RESULT ARRAY after the region: the transposed product of the arrays the region found (the two halves' last
    points cover its rows). -/
theorem final (c : Dev nD) : (dats m 0 c).arrAt 2 cfg0.N = prodT (V m c main_v0) (V m c main_v1) :=
  (dats m 0 c).arrAt_eq_of_cover 2 (prodT (V m c main_v0) (V m c main_v1)) (flushed_eq m c) fun i => by
    have hi0 : (i 0).val < 14400 := (i 0).isLt
    have hi1 : (i 1).val < 64 := (i 1).isLt
    have hN : cfg0.N = 96 := N_0
    let t : Fin cfg0.N := ⟨48 * ((i 0).val / 7200) + 47, by rw [hN]; omega⟩
    have ht : t.val = 48 * ((i 0).val / 7200) + 47 := rfl
    obtain ⟨-, -, -, -, e4, e5⟩ := idx_facts t
    refine ⟨t, (flush0_2 t).mpr (by omega), ?_⟩
    rw [mem_blk]
    intro a
    match a with
    | ⟨0, _⟩ => show win0_2.index t (0 : Fin 2) * 7200 ≤ (i 0).val ∧ (i 0).val < win0_2.index t (0 : Fin 2) * 7200 + 7200; omega
    | ⟨1, _⟩ => show win0_2.index t (1 : Fin 2) * 64 ≤ (i 1).val ∧ (i 1).val < win0_2.index t (1 : Fin 2) * 64 + 64; omega

end Cert.KernelIdeal.Acc

end
-- ==== Proof.HostTail.lean ====
/-
  The host operations around the kernel's region, read as functions of the arrays.

  Before the region the two reshapes flatten x to [64, 12288] and the weight to [14400, 12288]; these are the
  arrays X and W the region finds. After the region the [14400, 64] result is transposed, the bias row is added to
  every row, and the sum is reshaped to [64, 16, 30, 30]: the program's result is that chain applied to whatever
  the region left in its result array.
-/
import proofs.«113249_j51685636440285_2_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

namespace Cert.KernelIdeal.Tail

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- The region finds, as X, the first argument flattened. -/
theorem V_main_v0 (c : Dev nD) :
    V m c main_v0 = shapeCast S64x12288 (m ((c : Thread nD τ).loc main_arg0)) shapeCasts_S64x3x64x64_S64x12288 := by
  show StableHlo.after hostOps0 (fun b => m (c, b)) (Proc.devRef .tc main_v0) = _
  after_results
  rfl

/-- The region finds, as W, the second argument flattened. -/
theorem V_main_v1 (c : Dev nD) :
    V m c main_v1 = shapeCast S14400x12288 (m ((c : Thread nD τ).loc main_arg1)) shapeCasts_S16x30x30x3x64x64_S14400x12288 := by
  show StableHlo.after hostOps0 (fun b => m (c, b)) (Proc.devRef .tc main_v1) = _
  after_results
  rfl

/-- The program's result: the region's result array, whatever it is, transposed, the bias row added to every row,
    reshaped. -/
theorem result_eq (c : Dev nD) (G : (⟨S14400x64, .f32⟩ : BufTy).Contents (Elt F)) (hG : (dats m 0 c).arrAt 2 cfg0.N = G) :
    Pipeline.afterTail₀ cfgs (dats m) 0 (V0 m) [hostOps1] c main_v6
      = shapeCast S64x16x30x30
          (addf (transpose S64x14400 [1, 0] G transposes_S14400x64_S64x14400_1_0)
            (broadcastInDim S64x14400 ![0, 1] bcast_S1x14400_S64x14400_0_1 (m ((c : Thread nD τ).loc main_arg2))))
          shapeCasts_S64x14400_S64x16x30x30 := by
  unfold Pipeline.afterTail₀
  show StableHlo.after hostOps1 _ (Proc.devRef .tc main_v6) = _
  after_results
  -- the region's result array holds G; the bias argument is no array of the region and no host line wrote it
  have h2 : Pipeline.withArrays (cfgs 0).spec c (V0 m c) (fun w => (dats m 0 c).arrAt w (cfgs 0).N) (Proc.devRef .tc main_v2) = G :=
    (Pipeline.withArrays_arr spec0 launch0.win.arr_inj c (V0 m c) (fun w => (dats m 0 c).arrAt w (cfgs 0).N) 2).trans hG
  have h3 : Pipeline.withArrays (cfgs 0).spec c (V0 m c) (fun w => (dats m 0 c).arrAt w (cfgs 0).N) (Proc.devRef .tc main_arg2) = m ((c : Thread nD τ).loc main_arg2) :=
    (Pipeline.withArrays_of_ne _ c (V0 m c) _ main_arg2 (by exact (by decide : ∀ w, Pipeline.arrRef spec0 w ≠ main_arg2))).trans (V_main_arg2 m c)
  rw [h2, h3]
  rfl

end Cert.KernelIdeal.Tail

end
-- ==== Proof.KernelRun.lean ====
/-
  The kernel's run, read: its result is the product X · Wᵀ of the flattened arguments, plus the bias row, reshaped.
-/
import proofs.«113249_j51685636440285_2_alg».proof.Proof.Accumulated
import proofs.«113249_j51685636440285_2_alg».proof.Proof.HostTail

set_option maxRecDepth 16384

noncomputable section

namespace Cert.KernelIdeal.Acc

open Idealize.ShloMosaic Idealize.ShloMosaic.TcCoe Idealize.SL.Sem
open Cert.KernelIdeal Cert.KernelIdeal.Gen Cert.BlockedProduct

/-- Every weakly fair execution of the kernel's program at the exact values terminates with the result at the
    product of the flattened first argument with the transpose of the flattened second, the third argument added
    to every row, reshaped; the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6)
        = shapeCast S64x16x30x30
            (addf (F := Ideal) (s := S64x14400) (φ := .f32) (prod (shapeCast S64x12288 (m ((c.tc : Thread nD τ).loc main_arg0)) shapeCasts_S64x3x64x64_S64x12288)
                        (shapeCast S14400x12288 (m ((c.tc : Thread nD τ).loc main_arg1)) shapeCasts_S16x30x30x3x64x64_S14400x12288))
                  (broadcastInDim S64x14400 ![0, 1] bcast_S1x14400_S64x14400_0_1 (m ((c.tc : Thread nD τ).loc main_arg2))))
            shapeCasts_S64x14400_S64x16x30x30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans
        ((Tail.result_eq m c _ (final m c)).trans (by
          rw [transpose_prodT, Tail.V_main_v0, Tail.V_main_v1])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Acc

end
-- ==== Proof.LibHostRead.lean ====
/-
  Reads of host operations at an index, at the exact extended-real values, for rank-2 arrays: a `dot_general`
  that contracts the second axis of its left operand with the first axis of its right operand is, at entry
  `(p, q)`, the sum over the contracted coordinate of the products; a bias of length `b` broadcast first to a row
  `[1, b]` and then down `a` rows reads its own entry `q`; a scalar broadcast to any shape reads the scalar; a
  slice of `w` columns starting at column `o` reads column `o + q`; and the word of the float one is the real one.
-/
import Idealize.ShloMosaic.PureOps.Ideal.Laws
import Idealize.ShloMosaic.Lib.Pipeline.Value
import Idealize.ShloMosaic.Lib.ValueIdx

noncomputable section

open scoped BigOperators

namespace Cert.HostRead

open Idealize.ShloMosaic Idealize.ShloMosaic.ValueIdx

/-- A host product contracting axis 1 of the left operand with axis 0 of the right one, read at `(p, q)`. -/
theorem dotGeneral_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    Host.dotGeneral D prec x w (ix2 p q) = ∑ d : Fin k, x (ix2 p d) * w (ix2 d q) := by
  obtain ⟨lc, rc, ln, rn, lb, rb, wf⟩ := D
  dsimp only at hlc hrc hln hrn hlb hrb
  subst hlc hrc hln hrn hlb hrb
  refine (Ideal.dotGeneral_apply _ prec .single x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- A bias broadcast to a row and then down the rows reads its own entry. -/
theorem bias_rows_apply {α : Type} {a b : ℕ} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (p : Fin a) (q : Fin b) :
    broadcastInDim ⟨2, ![a, b]⟩ ![0, 1] h2 (broadcastInDim ⟨2, ![1, b]⟩ ![1] h1 x) (ix2 p q) = x (ix1 q) := by
  unfold broadcastInDim
  refine congrArg x (funext fun ax => Fin.ext ?_)
  match ax with
  | ⟨0, _⟩ =>
    by_cases hb : b = 1
    · subst hb; simp [ix1, ix2]
    · simp [ix1, ix2, hb]; rfl

/-- A scalar broadcast to any shape reads the scalar. -/
theorem scalar_bcast_apply {α : Type} {t : Shape} (h : (⟨0, ![]⟩ : Shape).BroadcastsInDim t ![])
    (x : (⟨0, ![]⟩ : Shape).Idx → α) (j : t.Idx) : broadcastInDim t ![] h x j = x ix0 := by
  unfold broadcastInDim
  exact congrArg x (funext fun ax => ax.elim0)

/-- A slice of `w` columns from column `o` on, all rows, reads column `o + q`. -/
theorem cols_apply {α : Type} {a n w : ℕ} (o : ℕ) (h : (⟨2, ![a, n]⟩ : Shape).Slices ![0, o] ⟨2, ![a, w]⟩)
    (x : (⟨2, ![a, n]⟩ : Shape).Idx → α) (p : Fin a) (q : Fin w) (ho : o + q.val < n) :
    extractStridedSlice ⟨2, ![a, w]⟩ ![0, o] x h (ix2 p q) = x (ix2 p ⟨o + q.val, ho⟩) := by
  refine extractStridedSlice_apply ![0, o] x h (ix2 p q) (ix2 p ⟨o + q.val, ho⟩) fun ax => ?_
  match ax with
  | ⟨0, _⟩ => show p.val = 0 + p.val; omega
  | ⟨1, _⟩ => rfl

/-- The word of the float one denotes the real one. -/
theorem ofBits_one_f32 : Ideal.ofBits .f32 0x3F800000#32 = 1 := by
  simp [Ideal.ofBits, Ideal.ieee, -EReal.coe_mul]
  norm_num

end Cert.HostRead

end
-- ==== Proof.Reference.lean ====
/-
  The reference's matrix product read entry by entry: the host product of X with the transpose of W is, at
  (q, n), the inner product of row q of X with row n of W, the sum over all 12288 columns.
-/
import proofs.«113249_j51685636440285_2_alg».proof.Proof.Gen.ReferenceIdeal.Run
import proofs.«113249_j51685636440285_2_alg».proof.Proof.BlockedProduct
import proofs.«113249_j51685636440285_2_alg».proof.Proof.LibHostRead
import proofs.«113249_j51685636440285_2_alg».proof.Proof.LibMatmulRead
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen

/-- The reference's product of `X` with the transpose of `W` is the product of the specification. -/
theorem dot_eq_prod (X : FVec Ideal S64x12288 .f32) (W : FVec Ideal S14400x12288 .f32) :
    Host.dotGeneral (F := Ideal) dot_S64x12288_S12288x14400_S64x14400_1_0_0_1_n_n none X
        (transpose S12288x14400 [1, 0] W transposes_S14400x12288_S12288x14400_1_0)
      = Cert.BlockedProduct.prod X W := by
  funext i
  obtain ⟨q, n, rfl⟩ : ∃ (q : Fin 64) (n : Fin 14400), i = ix2 q n := ⟨i 0, i 1, eq_ix2 i⟩
  -- the product at (q, n) is the sum over the 12288 columns d of X(q, d) times the transposed W at (d, n)
  refine (Cert.HostRead.dotGeneral_ix2_apply _ rfl rfl rfl rfl rfl rfl none X _ q n).trans ?_
  change _ = Cert.BlockedProduct.inner X W n q
  unfold Cert.BlockedProduct.inner
  refine Finset.sum_congr rfl fun d _ => ?_
  -- the transposed W at (d, n) is W(n, d); multiplication is commutative
  refine (congrArg (X (ix2 q d) * ·) (transpose_ab_ba_apply W _ d n)).trans ?_
  exact mul_comm _ _

end Cert.ReferenceIdeal.RefValue

end
-- ==== Proof.Claims.lean ====
/-
  The five claims.

  The three programs run and leave their arguments unchanged: the two kernel programs by the generated frame, the
  reference by its generated run. The idealization rewrote nothing, so there is nothing to preserve. And at the exact
  values the two idealized programs end with the same result: both flatten x to X [64, 12288] and the weight to
  W [14400, 12288], both end with (X · Wᵀ + bias row) reshaped to [64, 16, 30, 30]. The reference takes the product
  in one host contraction over all 12288 columns; the kernel takes W · Xᵀ, 256 columns at a time into an accumulator
  that starts at zero, for each half of W's rows, and transposes on the host. Entry by entry both are the same sum of
  the same 12288 products of extended reals, only grouped and ordered differently, and the factors of each product
  exchanged.
-/
import proofs.«113249_j51685636440285_2_alg».proof.Defs
import proofs.«113249_j51685636440285_2_alg».proof.Proof.Gen.Kernel.Frame
import proofs.«113249_j51685636440285_2_alg».proof.Proof.Gen.KernelIdeal.Frame
import proofs.«113249_j51685636440285_2_alg».proof.Proof.Gen.ReferenceIdeal.Run
import proofs.«113249_j51685636440285_2_alg».proof.Proof.Gen.Pre_finite_inputs
import proofs.«113249_j51685636440285_2_alg».proof.Proof.KernelRun
import proofs.«113249_j51685636440285_2_alg».proof.Proof.Reference

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the product of the flattened arguments plus the bias row, reshaped: the kernel's by its
    accumulation over the grid, the reference's by its one contraction. -/
theorem algebraic : Cert.algebraic_KernelIdeal_ReferenceIdeal := by
  intro m ρ m' ρ' _ hagree
  refine ⟨_, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.RefValue.dot_eq_prod]

end Cert.Proof.Claims

end
-- ==== Proof.lean ====
/-
  The certificate of a convolution written as one dense matrix product, computed by a kernel that accumulates the
  product over blocks of columns, against the plain product.

  With X the input flattened to [64, 12288] and W the weight flattened to [14400, 12288], the reference computes
  X · Wᵀ + bias and reshapes it to [64, 16, 30, 30]. The kernel's grid has 2 × 48 points: for each half of W's rows
  it walks the 48 blocks of 256 columns, adding to an accumulator (zero before the first block) the product of the
  W block with the transpose of the X block, and after the last block writes the accumulator to its half of a
  [14400, 64] result; the host transposes that, adds the bias and reshapes. At the exact values a change of float
  format is the identity and every sum is an exact sum of extended reals, so entry (q, n) of both is the sum over
  all 12288 columns k of X(q, k) · W(n, k): the kernel's blocks partition the columns, and addition and
  multiplication of extended reals are commutative and associative. No entry has to be finite for that.
  The modules: the blocked sum and its laws (BlockedProduct); what one grid step leaves (StepResult); the
  accumulator after every point and the result array after the region (Accumulated); the host operations around
  the region (HostTail); the kernel's run (KernelRun); the reference's contraction (Reference); the claims (Claims).
-/
import proofs.«113249_j51685636440285_2_alg».proof.Defs
import proofs.«113249_j51685636440285_2_alg».proof.Proof.Gen.Kernel
import proofs.«113249_j51685636440285_2_alg».proof.Proof.Gen.Kernel.Skeleton
import proofs.«113249_j51685636440285_2_alg».proof.Proof.Gen.Kernel.Launch
import proofs.«113249_j51685636440285_2_alg».proof.Proof.Gen.Kernel.Points
import proofs.«113249_j51685636440285_2_alg».proof.Proof.Gen.Kernel.Frame
import proofs.«113249_j51685636440285_2_alg».proof.Proof.Gen.KernelIdeal
import proofs.«113249_j51685636440285_2_alg».proof.Proof.Gen.KernelIdeal.Skeleton
import proofs.«113249_j51685636440285_2_alg».proof.Proof.Gen.KernelIdeal.Launch
import proofs.«113249_j51685636440285_2_alg».proof.Proof.Gen.KernelIdeal.Points
import proofs.«113249_j51685636440285_2_alg».proof.Proof.Gen.KernelIdeal.Frame
import proofs.«113249_j51685636440285_2_alg».proof.Proof.Gen.ReferenceIdeal
import proofs.«113249_j51685636440285_2_alg».proof.Proof.Gen.Pre_finite_inputs
import proofs.«113249_j51685636440285_2_alg».proof.Proof.Gen.ReferenceIdeal.Run
import proofs.«113249_j51685636440285_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
